-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096x1024 .f32) (main_arg6 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x4096, .bf16⟩
  | .hbm, ⟨11, _⟩ => ⟨S4096, .f32⟩
  | .hbm, ⟨12, _⟩ => ⟨S1x4096, .f32⟩
  | .hbm, ⟨13, _⟩ => ⟨S4096x1024, .f32⟩
  | .hbm, ⟨14, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  slices_S4096_o0_S1024 : S4096.Slices ![0] S1024
  shapeCasts_S1024_S1x1024 : S1024.ShapeCasts S1x1024
  broadcasts_S1x1024_S256x1024 : S1x1024.Broadcasts S256x1024
  inb_S1024x4096_S1024x1024_0_1024 : ∀ a, (![0, 1024] : Fin 2 → Nat) a + S1024x1024.size a ≤ S1024x4096.size a
  slices_S4096_o1024_S1024 : S4096.Slices ![1024] S1024
  inb_S1024x4096_S1024x1024_0_2048 : ∀ a, (![0, 2048] : Fin 2 → Nat) a + S1024x1024.size a ≤ S1024x4096.size a
  slices_S4096_o2048_S1024 : S4096.Slices ![2048] S1024
  inb_S1024x4096_S1024x1024_0_3072 : ∀ a, (![0, 3072] : Fin 2 → Nat) a + S1024x1024.size a ≤ S1024x4096.size a
  slices_S4096_o3072_S1024 : S4096.Slices ![3072] S1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S1024x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibSigmoid.lean ====
/-
  The logistic function in its two spellings, on the extended reals.

  One program computes a gate as `1 / (1 + exp (-z))`, the other as `½ · tanh (½ · z) + ½`. On a real `z`, with
  `a = exp (z / 2) > 0`: `tanh (z / 2) = (a - a⁻¹) / (a + a⁻¹) = (a² - 1) / (a² + 1)`, so the second form is
  `a² / (a² + 1)`; and `exp (-z) = a⁻²`, so the first form is `1 / (1 + a⁻²) = a² / (a² + 1)` as well.
  At the two infinities both forms take the limits: at `+∞` the hyperbolic tangent is `1` and `exp (-∞) = 0`, so both
  are `1`; at `-∞` the hyperbolic tangent is `-1` and `1 + exp (+∞) = +∞`, whose reciprocal is `0`, so both are `0`.
  Hence the two forms are one function on all of `[-∞, +∞]`, with no finiteness assumed of `z`.

  The two float patterns involved denote `½` and `1`.
-/
import Idealize.ShloMosaic.PureOps.Ideal
import Idealize.ShloMosaic.PureOps.Ideal.Laws

noncomputable section

namespace Cert.LibSigmoid

open Idealize.ShloMosaic

/-- The pattern of `0.5` denotes the real `1/2`. -/
theorem half_val : Ideal.ofBits .f32 0x3F000000#32 = ((1 / 2 : ℝ) : EReal) := by
  simp [Ideal.ofBits, Ideal.ieee, -EReal.coe_mul]; norm_num

/-- The pattern of `1.0` denotes `1`. -/
theorem one_val : Ideal.ofBits .f32 0x3F800000#32 = 1 := by
  simp [Ideal.ofBits, Ideal.ieee, -EReal.coe_mul]; norm_num

/-- On the reals: `½ · tanh (½ · r) + ½ = 1 / (1 + exp (-r))`. -/
theorem real_forms (r : ℝ) : 1 / 2 * Real.tanh (1 / 2 * r) + 1 / 2 = 1 / (1 + Real.exp (-r)) := by
  have ha : 0 < Real.exp (1 / 2 * r) := Real.exp_pos _
  have hinv : Real.exp (-(1 / 2 * r)) = (Real.exp (1 / 2 * r))⁻¹ := Real.exp_neg _
  have hneg : Real.exp (-r) = (Real.exp (1 / 2 * r))⁻¹ * (Real.exp (1 / 2 * r))⁻¹ := by
    rw [← hinv, ← Real.exp_add]; congr 1; ring
  rw [Real.tanh_eq_sinh_div_cosh, Real.sinh_eq, Real.cosh_eq, hinv, hneg]
  generalize Real.exp (1 / 2 * r) = a at ha
  have h0 : a ≠ 0 := ne_of_gt ha
  have h1 : a * a + 1 ≠ 0 := by positivity
  field_simp
  ring

/-- On the extended reals the two spellings of the logistic function agree everywhere. -/
theorem forms (z : EReal) :
    ((1 / 2 : ℝ) : EReal) * Ideal.tanh (((1 / 2 : ℝ) : EReal) * z) + ((1 / 2 : ℝ) : EReal)
      = Ideal.div 1 (1 + Ideal.exp (-z)) := by
  induction z using EReal.rec with
  | bot =>
    have hb : ((1 / 2 : ℝ) : EReal) * ⊥ = ⊥ := EReal.coe_mul_bot_of_pos (by norm_num)
    rw [hb, Ideal.tanh_bot, EReal.neg_bot, Ideal.exp_top]
    have ht : (1 : EReal) + ⊤ = ⊤ := by
      rw [show (1 : EReal) = ((1 : ℝ) : EReal) from rfl]; exact EReal.coe_add_top 1
    rw [ht, Ideal.div, if_neg EReal.top_ne_zero, EReal.inv_top, mul_zero]
    have hm : (-1 : EReal) = ((-1 : ℝ) : EReal) := by rw [EReal.coe_neg, EReal.coe_one]
    rw [hm, ← EReal.coe_mul, ← EReal.coe_add]
    norm_num
  | top =>
    have hb : ((1 / 2 : ℝ) : EReal) * ⊤ = ⊤ := EReal.coe_mul_top_of_pos (by norm_num)
    rw [hb, Ideal.tanh_top, EReal.neg_top, Ideal.exp_bot, add_zero, mul_one]
    rw [Ideal.div, if_neg one_ne_zero, inv_one, mul_one, ← EReal.coe_add]
    norm_num
  | coe r =>
    have hy : (1 + Real.exp (-r)) ≠ 0 := by positivity
    rw [← EReal.coe_mul, Ideal.tanh_coe, ← EReal.coe_mul, ← EReal.coe_add, ← EReal.coe_neg, Ideal.exp_coe]
    rw [show (1 : EReal) = ((1 : ℝ) : EReal) from rfl, ← EReal.coe_add, Ideal.div_coe hy, ← EReal.coe_mul]
    rw [real_forms r, one_mul]

/-- The same with the float patterns of `½` and `1` as the programs spell them. -/
theorem forms_bits (z : EReal) :
    Ideal.ofBits .f32 0x3F000000#32 * Ideal.tanh (Ideal.ofBits .f32 0x3F000000#32 * z) + Ideal.ofBits .f32 0x3F000000#32
      = Ideal.div (Ideal.ofBits .f32 0x3F800000#32) (Ideal.ofBits .f32 0x3F800000#32 + Ideal.exp (-z)) := by
  rw [half_val, one_val]; exact forms z

end Cert.LibSigmoid

end
-- ==== Proof.Spec.lean ====
/-
  The cell as one function of its inputs, index by index, on the extended reals.

  For a batch of `R` rows: `x`, `h`, `c` are `[R, 1024]`; the two weight matrices are given already transposed, `[1024, 4096]`,
  and the two biases already added into one row `[1, 4096]`. Gate column `n` of row `p` has the pre-activation
      preact p n = ∑ₖ x(p, k) · W(k, n)  +  ∑ₖ h(p, k) · U(k, n)  +  b(0, n),
  the four gates of hidden unit `q` sit at columns `q`, `1024 + q`, `2048 + q`, `3072 + q` (input, forget, cell, output), and
      c'(p, q) = σ(preact p (1024 + q)) · c(p, q) + σ(preact p q) · tanh(preact p (2048 + q)),
      h'(p, q) = σ(preact p (3072 + q)) · tanh(c'(p, q)),
  with `σ z = ½ · tanh(½ · z) + ½`, which is `1 / (1 + exp (-z))` on every extended real.

  An entry depends on its own row of `x`, `h`, `c` only, so a block of rows of the result is the result of that block of
  rows (`cellAt_rows`, `hiddenAt_rows`): this is what lets a grid of row blocks be read as one whole-array function.
-/
import Idealize.ShloMosaic.PureOps.Ideal
import Idealize.ShloMosaic.Lib.ValueIdx
import proofs.«123224_j73787538145444_2_alg».proof.Proof.LibSigmoid

noncomputable section

namespace Cert.Lstm

open Idealize.ShloMosaic Idealize.ShloMosaic.ValueIdx

/-- An `[a, b]` array of extended reals. -/
abbrev Mat (a b : ℕ) : Type := (⟨2, ![a, b]⟩ : Shape).Idx → EReal
/-- An `[a]` array of extended reals. -/
abbrev Row (a : ℕ) : Type := (⟨1, ![a]⟩ : Shape).Idx → EReal

/-- The logistic function in its hyperbolic-tangent spelling, the `½`s as float patterns. -/
def gateFn (z : EReal) : EReal :=
  Ideal.ofBits .f32 0x3F000000#32 * Ideal.tanh (Ideal.ofBits .f32 0x3F000000#32 * z) + Ideal.ofBits .f32 0x3F000000#32

/-- It is `1 / (1 + exp (-z))`, the `1`s as float patterns, on every extended real. -/
theorem gateFn_eq (z : EReal) :
    gateFn z = Ideal.div (Ideal.ofBits .f32 0x3F800000#32) (Ideal.ofBits .f32 0x3F800000#32 + Ideal.exp (-z)) :=
  Cert.LibSigmoid.forms_bits z

/-- Column `o + q` of the `4096` gate columns: gate `o / 1024` of hidden unit `q`. -/
def gcol (o : ℕ) (ho : o + 1024 ≤ 4096) (q : Fin 1024) : Fin 4096 := ⟨o + q.val, by have := q.isLt; omega⟩

theorem gcol_val (o : ℕ) (ho : o + 1024 ≤ 4096) (q : Fin 1024) : (gcol o ho q).val = o + q.val := rfl

/-- The pre-activation of gate column `n` at row `p`. -/
def preact {R : ℕ} (x h : Mat R 1024) (W U : Mat 1024 4096) (b : Mat 1 4096) (p : Fin R) (n : Fin 4096) : EReal :=
  (∑ k : Fin 1024, x (ix2 p k) * W (ix2 k n)) + (∑ k : Fin 1024, h (ix2 p k) * U (ix2 k n)) + b (ix2 (0 : Fin 1) n)

/-- The new cell state at row `p`, hidden unit `q`. -/
def cellAt {R : ℕ} (x h c : Mat R 1024) (W U : Mat 1024 4096) (b : Mat 1 4096) (p : Fin R) (q : Fin 1024) : EReal :=
  gateFn (preact x h W U b p (gcol 1024 (by norm_num) q)) * c (ix2 p q)
    + gateFn (preact x h W U b p (gcol 0 (by norm_num) q)) * Ideal.tanh (preact x h W U b p (gcol 2048 (by norm_num) q))

/-- The new hidden state at row `p`, hidden unit `q`. -/
def hiddenAt {R : ℕ} (x h c : Mat R 1024) (W U : Mat 1024 4096) (b : Mat 1 4096) (p : Fin R) (q : Fin 1024) : EReal :=
  gateFn (preact x h W U b p (gcol 3072 (by norm_num) q)) * Ideal.tanh (cellAt x h c W U b p q)

/-- The new cell state as an array. -/
def cellArr {R : ℕ} (x h c : Mat R 1024) (W U : Mat 1024 4096) (b : Mat 1 4096) : Mat R 1024 :=
  fun i => cellAt x h c W U b ⟨(i 0).val, idx2_lt0 i⟩ ⟨(i 1).val, idx2_lt1 i⟩

/-- The new hidden state as an array. -/
def hiddenArr {R : ℕ} (x h c : Mat R 1024) (W U : Mat 1024 4096) (b : Mat 1 4096) : Mat R 1024 :=
  fun i => hiddenAt x h c W U b ⟨(i 0).val, idx2_lt0 i⟩ ⟨(i 1).val, idx2_lt1 i⟩

theorem cellArr_apply {R : ℕ} (x h c : Mat R 1024) (W U : Mat 1024 4096) (b : Mat 1 4096) (p : Fin R) (q : Fin 1024) :
    cellArr x h c W U b (ix2 p q) = cellAt x h c W U b p q := rfl

theorem hiddenArr_apply {R : ℕ} (x h c : Mat R 1024) (W U : Mat 1024 4096) (b : Mat 1 4096) (p : Fin R) (q : Fin 1024) :
    hiddenArr x h c W U b (ix2 p q) = hiddenAt x h c W U b p q := rfl

/-! ## A block of rows -/

section Rows

variable {M R : ℕ} (o : ℕ) (x h c : Mat M 1024) (xb hb cb : Mat R 1024) (W U : Mat 1024 4096) (b : Mat 1 4096)
  (hx : ∀ (p : Fin R) (k : Fin 1024) (hp : o + p.val < M), xb (ix2 p k) = x (ix2 (⟨o + p.val, hp⟩ : Fin M) k))
  (hh : ∀ (p : Fin R) (k : Fin 1024) (hp : o + p.val < M), hb (ix2 p k) = h (ix2 (⟨o + p.val, hp⟩ : Fin M) k))
  (hc : ∀ (p : Fin R) (k : Fin 1024) (hp : o + p.val < M), cb (ix2 p k) = c (ix2 (⟨o + p.val, hp⟩ : Fin M) k))

include hx hh in
/-- The pre-activation of row `p` of the block of rows from `o` is that of row `o + p` of the whole batch. -/
theorem preact_rows (p : Fin R) (r : Fin M) (hr : r.val = o + p.val) (n : Fin 4096) :
    preact xb hb W U b p n = preact x h W U b r n := by
  have hM : o + p.val < M := hr ▸ r.isLt
  have er : (⟨o + p.val, hM⟩ : Fin M) = r := Fin.ext hr.symm
  unfold preact
  have e1 : ∀ k : Fin 1024, xb (ix2 p k) = x (ix2 r k) := fun k => by rw [hx p k hM, er]
  have e2 : ∀ k : Fin 1024, hb (ix2 p k) = h (ix2 r k) := fun k => by rw [hh p k hM, er]
  simp only [e1, e2]

include hx hh hc in
theorem cellAt_rows (p : Fin R) (r : Fin M) (hr : r.val = o + p.val) (q : Fin 1024) :
    cellAt xb hb cb W U b p q = cellAt x h c W U b r q := by
  have hM : o + p.val < M := hr ▸ r.isLt
  have er : (⟨o + p.val, hM⟩ : Fin M) = r := Fin.ext hr.symm
  unfold cellAt
  rw [preact_rows o x h xb hb W U b hx hh p r hr, preact_rows o x h xb hb W U b hx hh p r hr,
    preact_rows o x h xb hb W U b hx hh p r hr, hc p q hM, er]

include hx hh hc in
theorem hiddenAt_rows (p : Fin R) (r : Fin M) (hr : r.val = o + p.val) (q : Fin 1024) :
    hiddenAt xb hb cb W U b p q = hiddenAt x h c W U b r q := by
  unfold hiddenAt
  rw [preact_rows o x h xb hb W U b hx hh p r hr, cellAt_rows o x h c xb hb cb W U b hx hh hc p r hr]

end Rows

/-! ## The weights transposed, the biases added -/

/-- A `[4096, 1024]` weight matrix transposed. -/
def tr (w : Mat 4096 1024) : Mat 1024 4096 := fun i => w (ix2 ⟨(i 1).val, idx2_lt1 i⟩ ⟨(i 0).val, idx2_lt0 i⟩)

theorem tr_apply (w : Mat 4096 1024) (k : Fin 1024) (n : Fin 4096) : tr w (ix2 k n) = w (ix2 n k) := rfl

/-- Two `[4096]` biases added, as one row `[1, 4096]`. -/
def biasRow (b₁ b₂ : Row 4096) : Mat 1 4096 := fun i => b₁ (ix1 ⟨(i 1).val, idx2_lt1 i⟩) + b₂ (ix1 ⟨(i 1).val, idx2_lt1 i⟩)

theorem biasRow_apply (b₁ b₂ : Row 4096) (u : Fin 1) (n : Fin 4096) : biasRow b₁ b₂ (ix2 u n) = b₁ (ix1 n) + b₂ (ix1 n) := rfl

/-- Adding the two biases one after the other, between the two products, is adding their sum last: sums of extended reals
    commute and associate (no finiteness is needed). -/
theorem add_biases (A B b₁ b₂ : EReal) : A + b₁ + B + b₂ = A + B + (b₁ + b₂) := by
  rw [add_assoc (A + b₁), add_add_add_comm]

/-- The new cell state of the whole batch from the arguments as the programs receive them. -/
def cellOf (x h c wih whh : Mat 4096 1024) (bih bhh : Row 4096) : Mat 4096 1024 :=
  cellArr x h c (tr wih) (tr whh) (biasRow bih bhh)

/-- The new hidden state of the whole batch from the arguments as the programs receive them. -/
def hiddenOf (x h c wih whh : Mat 4096 1024) (bih bhh : Row 4096) : Mat 4096 1024 :=
  hiddenArr x h c (tr wih) (tr whh) (biasRow bih bhh)

end Cert.Lstm

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.BodyValue.lean ====
/-
  What the kernel body computes for one block of 256 rows, entry by entry, on the extended reals.

  The body holds a block `x, h, c : [256, 1024]`, the two transposed weight matrices `W, U : [1024, 4096]` whole, and the
  summed bias row `b : [1, 4096]`. For each of the four gates it loads the `1024` columns of `W` and of `U` from the
  gate's offset, multiplies the block by each on the matrix unit into a zero accumulator, adds the two products, and adds the
  bias row's slice at the same offset broadcast over the rows. A matrix-unit product into zero is the plain sum over the
  contracted axis, a change of float format is the identity, and the slice / cast / broadcast of the bias row read its
  entry `(0, offset + q)`: so gate column `offset + q` at row `p` is exactly `preact x h W U b p (offset + q)`. The gates are then
  combined as the cell function combines them, so the two stored values are `cellAt` and `hiddenAt` of the block.
-/
import proofs.«123224_j73787538145444_2_alg».proof.Proof.Gen.KernelIdeal.Frame
import proofs.«123224_j73787538145444_2_alg».proof.Proof.Spec
import proofs.«123224_j73787538145444_2_alg».proof.Proof.LibPlainDot
import Idealize.ShloMosaic.Lib.ValueLayout
import Idealize.ShloMosaic.Lib.Pipeline.Value
import Idealize.ShloMosaic.PureOps.Ideal.Laws

noncomputable section

namespace Cert.Lstm.Body

open Idealize.ShloMosaic Idealize.ShloMosaic.ValueIdx Cert.KernelIdeal Cert.KernelIdeal.Gen Cert.Lstm Cert.LibPlainDot

/-- The kernel's dimension numbers are the plain ones of a `[256, 1024]` by `[1024, 1024]` product. -/
theorem dims_plain : dot_S256x1024_S1024x1024_S256x1024_1_0_0_1_n_n = DotDims.plain 256 1024 1024 := rfl

/-- The `1024` columns of a `[1024, 4096]` array from column `o`, read at `(k, q)`, are the array at `(k, o + q)`. -/
theorem cols_at (X : Vec Ideal S1024x4096 .bf16) (o : ℕ) (ho : o + 1024 ≤ 4096)
    (inb : ∀ a, (![0, o] : Fin 2 → ℕ) a + S1024x1024.size a ≤ S1024x4096.size a) (k q : Fin 1024) :
    View.ld X (Rect.unit (s := S1024x4096) ![0, o] S1024x1024.size inb) (ix2 k q) = X (ix2 k (gcol o ho q)) := by
  show X _ = X _
  refine congrArg X (funext fun a => Fin.ext ?_)
  match a with
  | ⟨0, _⟩ => show 0 + 1 * k.val = k.val; omega
  | ⟨1, _⟩ => show o + 1 * q.val = o + q.val; omega

/-- The bias row `[1, 4096]` cast to `[4096]`, cut to the `1024` entries from `o`, cast to `[1, 1024]` and broadcast over
    `256` rows reads, at `(p, q)`, the row's entry `(0, o + q)`. -/
theorem bias_at (b : FVec Ideal S1x4096 .f32) (o : ℕ) (ho : o + 1024 ≤ 4096) (h1 : S1x4096.ShapeCasts S4096)
    (hs : S4096.Slices ![o] S1024) (hc : S1024.ShapeCasts S1x1024) (hb : S1x1024.Broadcasts S256x1024)
    (p : Fin 256) (q : Fin 1024) :
    broadcastTo S256x1024 (shapeCast S1x1024 (extractStridedSlice S1024 ![o] (shapeCast S4096 b h1) hs) hc) hb (ix2 p q)
      = b (ix2 (0 : Fin 1) (gcol o ho q)) := by
  refine (broadcastTo_1b_ab_apply _ hb p q).trans ?_
  refine (shapeCast_a_1a_apply _ hc (0 : Fin 1) q).trans ?_
  refine (extractStridedSlice_apply ![o] (shapeCast S4096 b h1) hs (ix1 q) (ix1 (gcol o ho q)) (fun a => by
    match a with
    | ⟨0, _⟩ => rfl)).trans ?_
  exact shapeCast_1a_a_apply b h1 (gcol o ho q)

/-- A block rounded to bf16 times `1024` loaded columns on the matrix unit, into a zero accumulator, read at `(p, q)`: the
    sum over `k` of the block's `(p, k)` times the columns' `(k, q)`. -/
theorem dot_at (x : FVec Ideal S256x1024 .f32) (Wk : FVec Ideal S1024x1024 .bf16) (hlt : FTy.bits .bf16 < FTy.bits .f32)
    (hc : S1024x1024.ShapeCasts S1024x1024) (p : Fin 256) (q : Fin 1024) :
    matmul (F := Ideal) (φ₁ := .bf16) (φ₂ := .bf16) dot_S256x1024_S1024x1024_S256x1024_1_0_0_1_n_n none (truncf (F := Ideal) .bf16 x hlt) (shapeCast S1024x1024 Wk hc)
        (constant (F := Ideal) S256x1024 .f32 0x00000000#32) (ix2 p q)
      = ∑ k : Fin 1024, x (ix2 p k) * Wk (ix2 k q) := by
  rw [shapeCast_self, dims_plain]
  refine (congrFun (matmul_zero_plain (M := 256) (K := 1024) (N := 1024) none (truncf (F := Ideal) .bf16 x hlt) Wk) (ix2 p q)).trans ?_
  rfl

section Gate

variable (x h : FVec Ideal S256x1024 .f32) (W U : Vec Ideal S1024x4096 .bf16) (b : FVec Ideal S1x4096 .f32)

/-- One gate as the body computes it, at `(p, q)`: the pre-activation of gate column `o + q` at row `p`. -/
theorem gate_at (o : ℕ) (ho : o + 1024 ≤ 4096) (hlt : FTy.bits .bf16 < FTy.bits .f32)
    (inb : ∀ a, (![0, o] : Fin 2 → ℕ) a + S1024x1024.size a ≤ S1024x4096.size a)
    (hcw : S1024x1024.ShapeCasts S1024x1024) (h1 : S1x4096.ShapeCasts S4096)
    (hs : S4096.Slices ![o] S1024) (hc : S1024.ShapeCasts S1x1024) (hb : S1x1024.Broadcasts S256x1024)
    (p : Fin 256) (q : Fin 1024) :
    addf (F := Ideal) (addf (F := Ideal)
        (matmul (F := Ideal) (φ₁ := .bf16) (φ₂ := .bf16) dot_S256x1024_S1024x1024_S256x1024_1_0_0_1_n_n none (truncf (F := Ideal) .bf16 x hlt)
          (shapeCast S1024x1024 (View.ld W (Rect.unit (s := S1024x4096) ![0, o] S1024x1024.size inb)) hcw)
          (constant (F := Ideal) S256x1024 .f32 0x00000000#32))
        (matmul (F := Ideal) (φ₁ := .bf16) (φ₂ := .bf16) dot_S256x1024_S1024x1024_S256x1024_1_0_0_1_n_n none (truncf (F := Ideal) .bf16 h hlt)
          (shapeCast S1024x1024 (View.ld U (Rect.unit (s := S1024x4096) ![0, o] S1024x1024.size inb)) hcw)
          (constant (F := Ideal) S256x1024 .f32 0x00000000#32)))
      (broadcastTo S256x1024 (shapeCast S1x1024 (extractStridedSlice S1024 ![o] (shapeCast S4096 b h1) hs) hc) hb) (ix2 p q)
      = preact x h W U b p (gcol o ho q) := by
  rw [addf_apply, addf_apply, dot_at, dot_at, bias_at b o ho]
  unfold preact
  refine congrArg₂ (· + ·) (congrArg₂ (· + ·) (Finset.sum_congr rfl fun k _ => ?_) (Finset.sum_congr rfl fun k _ => ?_)) rfl
  · exact congrArg (x (ix2 p k) * ·) (cols_at W o ho inb k q)
  · exact congrArg (h (ix2 p k) * ·) (cols_at U o ho inb k q)

end Gate

/-! ## The two stored values -/

section Payload

variable (x0 x1 x2 : Vec Ideal S256x1024 .f32) (x3 x4 : Vec Ideal S1024x4096 .bf16) (x5 : Vec Ideal S1x4096 .f32)

/-- The input gate: the logistic function of gate column `q`. -/
theorem in_gate_at (p : Fin 256) (q : Fin 1024) :
    k0_pay4 x0 x1 x5 (View.ld x3 r0_2) (View.ld x4 r0_2) (ix2 p q)
      = gateFn (preact x0 x1 x3 x4 x5 p (gcol 0 (by norm_num) q)) :=
  congrArg gateFn (gate_at x0 x1 x3 x4 x5 0 (by norm_num) _ _ _ _ _ _ _ p q)

/-- The forget gate's pre-activation: gate column `1024 + q`. -/
theorem forget_pre_at (p : Fin 256) (q : Fin 1024) :
    k0_pay5 x0 x1 x5 (View.ld x3 r0_3) (View.ld x4 r0_3) (ix2 p q)
      = preact x0 x1 x3 x4 x5 p (gcol 1024 (by norm_num) q) :=
  gate_at x0 x1 x3 x4 x5 1024 (by norm_num) _ _ _ _ _ _ _ p q

/-- The new cell state from an input gate `i` and a forget pre-activation `f` computed before: `σ(f) · c + i · tanh(g)` with
    `g` gate column `2048 + q`. -/
theorem cell_gen (i f : FVec Ideal S256x1024 .f32) (p : Fin 256) (q : Fin 1024) :
    k0_pay6 (k0_pay1 x0) (k0_pay2 x1) x2 (k0_pay3 x5) i f (View.ld x3 r0_4) (View.ld x4 r0_4) (ix2 p q)
      = gateFn (f (ix2 p q)) * x2 (ix2 p q)
        + i (ix2 p q) * Ideal.tanh (preact x0 x1 x3 x4 x5 p (gcol 2048 (by norm_num) q)) :=
  congrArg (fun g => gateFn (f (ix2 p q)) * x2 (ix2 p q) + i (ix2 p q) * Ideal.tanh g)
    (gate_at x0 x1 x3 x4 x5 2048 (by norm_num) _ _ _ _ _ _ _ p q)

/-- The new hidden state from the same two values: `σ(o) · tanh(c')` with `o` gate column `3072 + q` and `c'` the new cell
    state. -/
theorem hidden_gen (i f : FVec Ideal S256x1024 .f32) (p : Fin 256) (q : Fin 1024) :
    k0_pay7 (k0_pay1 x0) (k0_pay2 x1) x2 (k0_pay3 x5) i f (View.ld x3 r0_4) (View.ld x4 r0_4) (View.ld x3 r0_5) (View.ld x4 r0_5) (ix2 p q)
      = gateFn (preact x0 x1 x3 x4 x5 p (gcol 3072 (by norm_num) q))
        * Ideal.tanh (k0_pay6 (k0_pay1 x0) (k0_pay2 x1) x2 (k0_pay3 x5) i f (View.ld x3 r0_4) (View.ld x4 r0_4) (ix2 p q)) :=
  congrArg (fun g => gateFn g
      * Ideal.tanh (k0_pay6 (k0_pay1 x0) (k0_pay2 x1) x2 (k0_pay3 x5) i f (View.ld x3 r0_4) (View.ld x4 r0_4) (ix2 p q)))
    (gate_at x0 x1 x3 x4 x5 3072 (by norm_num) _ _ _ _ _ _ _ p q)

/-- The value stored to the cell-state output is the cell function of the block. -/
theorem cell_pay_at (p : Fin 256) (q : Fin 1024) :
    k0_pay6 (k0_pay1 x0) (k0_pay2 x1) x2 (k0_pay3 x5) (k0_pay4 x0 x1 x5 (View.ld x3 r0_2) (View.ld x4 r0_2))
        (k0_pay5 x0 x1 x5 (View.ld x3 r0_3) (View.ld x4 r0_3)) (View.ld x3 r0_4) (View.ld x4 r0_4) (ix2 p q)
      = cellAt x0 x1 x2 x3 x4 x5 p q := by
  refine (cell_gen x0 x1 x2 x3 x4 x5 _ _ p q).trans ?_
  rw [in_gate_at, forget_pre_at]
  rfl

/-- The value stored to the hidden-state output is the hidden-state function of the block. -/
theorem hidden_pay_at (p : Fin 256) (q : Fin 1024) :
    k0_pay7 (k0_pay1 x0) (k0_pay2 x1) x2 (k0_pay3 x5) (k0_pay4 x0 x1 x5 (View.ld x3 r0_2) (View.ld x4 r0_2))
        (k0_pay5 x0 x1 x5 (View.ld x3 r0_3) (View.ld x4 r0_3)) (View.ld x3 r0_4) (View.ld x4 r0_4) (View.ld x3 r0_5) (View.ld x4 r0_5) (ix2 p q)
      = hiddenAt x0 x1 x2 x3 x4 x5 p q := by
  refine (hidden_gen x0 x1 x2 x3 x4 x5 _ _ p q).trans ?_
  rw [cell_pay_at]
  rfl

theorem zero_offsets : (![0, 0] : Fin 2 → ℕ) = fun _ => 0 := funext fun a => by fin_cases a <;> rfl

/-- What the body leaves in the cell-state output's buffer, from the six input blocks. -/
theorem cell_block_at (p : Fin 256) (q : Fin 1024) :
    out0_7 x0 x1 x2 x3 x4 x5 (ix2 p q) = cellAt x0 x1 x2 x3 x4 x5 p q := by
  unfold out0_7
  rw [View.canon_unit_zero zero_offsets]
  simp only [View.ld_unit_zero (S := S256x1024) zero_offsets, View.ld_unit_zero (S := S1x4096) zero_offsets]
  exact cell_pay_at x0 x1 x2 x3 x4 x5 p q

/-- What the body leaves in the hidden-state output's buffer, from the six input blocks. -/
theorem hidden_block_at (p : Fin 256) (q : Fin 1024) :
    out0_6 x0 x1 x2 x3 x4 x5 (ix2 p q) = hiddenAt x0 x1 x2 x3 x4 x5 p q := by
  unfold out0_6
  rw [View.canon_unit_zero zero_offsets]
  simp only [View.ld_unit_zero (S := S256x1024) zero_offsets, View.ld_unit_zero (S := S1x4096) zero_offsets]
  exact hidden_pay_at x0 x1 x2 x3 x4 x5 p q

end Payload

end Cert.Lstm.Body

end
-- ==== Proof.KernelValue.lean ====
/-
  The kernel's two output arrays after the run, as the cell function of the arguments.

  The grid has sixteen points; point `t` holds rows `256 t … 256 t + 255` of `x`, `h`, `c` and writes the same rows of the two
  outputs, while the three remaining windows are whole arrays the host wrote before the region: the two weight matrices
  transposed (their rounding to bf16 is the identity on the extended reals) and the two biases added and laid out as one
  row. So what point `t` writes back is the cell function of a block of rows, which is that block of rows of the cell
  function of the whole batch; the sixteen blocks cover the `4096` rows (row `r` lies in block `r / 256`), hence each output
  array ends as the whole-batch function.
-/
import proofs.«123224_j73787538145444_2_alg».proof.Proof.Gen.KernelIdeal.Value
import proofs.«123224_j73787538145444_2_alg».proof.Proof.BodyValue
import Idealize.ShloMosaic.Lib.StableHlo.Run
import Idealize.ShloMosaic.Lib.ValueLayout

noncomputable section

namespace Cert.Lstm.Kernel

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-- The printed index maps over the sixteen points: the row-blocked windows move with the point along the rows, the whole
    windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 16 := by
  have h : t.val < grid0.N := t.isLt
  rwa [N_0] at h

/-! ## The arrays the host wrote before the region -/

/-- The first weight window's array is the input-to-hidden weights transposed. -/
theorem entry_wih (c : Dev nD) :
    (V m c main_v1 : S1024x4096.Idx → EReal) = tr (m ((c : Thread nD τ).loc main_arg3)) := by
  have e : (V m c main_v1 : S1024x4096.Idx → EReal)
      = truncf (F := Ideal) .bf16 (transpose S1024x4096 [1, 0] (m ((c : Thread nD τ).loc main_arg3))
          Facts₀.transposes_S4096x1024_S1024x4096_1_0) Facts₀.bitsLt_bf16_f32 := by
    dsimp only [V, hostOps0]; after_results
  rw [e]
  funext i
  obtain ⟨k, n, rfl⟩ : ∃ (k : Fin 1024) (n : Fin 4096), i = ix2 k n := ⟨i 0, i 1, eq_ix2 i⟩
  exact transpose_ix2_apply _ _ k n

/-- The second weight window's array is the hidden-to-hidden weights transposed. -/
theorem entry_whh (c : Dev nD) :
    (V m c main_v3 : S1024x4096.Idx → EReal) = tr (m ((c : Thread nD τ).loc main_arg5)) := by
  have e : (V m c main_v3 : S1024x4096.Idx → EReal)
      = truncf (F := Ideal) .bf16 (transpose S1024x4096 [1, 0] (m ((c : Thread nD τ).loc main_arg5))
          Facts₀.transposes_S4096x1024_S1024x4096_1_0) Facts₀.bitsLt_bf16_f32 := by
    dsimp only [V, hostOps0]; after_results
  rw [e]
  funext i
  obtain ⟨k, n, rfl⟩ : ∃ (k : Fin 1024) (n : Fin 4096), i = ix2 k n := ⟨i 0, i 1, eq_ix2 i⟩
  exact transpose_ix2_apply _ _ k n

/-- The bias window's array is the two biases added, as one row. -/
theorem entry_bias (c : Dev nD) :
    (V m c main_v5 : S1x4096.Idx → EReal)
      = biasRow (m ((c : Thread nD τ).loc main_arg4)) (m ((c : Thread nD τ).loc main_arg6)) := by
  have e : (V m c main_v5 : S1x4096.Idx → EReal)
      = shapeCast S1x4096 (addf (F := Ideal) (s := S4096) (φ := .f32) (m ((c : Thread nD τ).loc main_arg4)) (m ((c : Thread nD τ).loc main_arg6)))
          Facts₀.shapeCasts_S4096_S1x4096 := by
    dsimp only [V, hostOps0]; after_results <;> rfl
  rw [e]
  funext i
  obtain ⟨u, n, rfl⟩ : ∃ (u : Fin 1) (n : Fin 4096), i = ix2 u n := ⟨i 0, i 1, eq_ix2 i⟩
  exact shapeCast_a_1a_apply _ _ u n

/-! ## The windows' blocks at a point -/

/-- Point `t`'s block of `x` is rows `256 t + p` of `x`. -/
theorem block_x (c : Dev nD) (t : Fin cfg0.N) (p : Fin 256) (k : Fin 1024) (hp : 256 * t.val + p.val < 4096) :
    iblk m c 0 t (ix2 p k) = m ((c : Thread nD τ).loc main_arg0) (ix2 (⟨256 * t.val + p.val, hp⟩ : Fin 4096) k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-- Point `t`'s block of `h` is rows `256 t + p` of `h`. -/
theorem block_h (c : Dev nD) (t : Fin cfg0.N) (p : Fin 256) (k : Fin 1024) (hp : 256 * t.val + p.val < 4096) :
    iblk m c 1 t (ix2 p k) = m ((c : Thread nD τ).loc main_arg1) (ix2 (⟨256 * t.val + p.val, hp⟩ : Fin 4096) k) := by
  show V m c main_arg1 (((cfg0.win 1).blk t).view.emb (ix2 p k)) = _
  rw [V_main_arg1]
  obtain ⟨-, -, e0, e1, -⟩ := idx_facts t
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

/-- Point `t`'s block of `c` is rows `256 t + p` of `c`. -/
theorem block_c (c : Dev nD) (t : Fin cfg0.N) (p : Fin 256) (k : Fin 1024) (hp : 256 * t.val + p.val < 4096) :
    iblk m c 2 t (ix2 p k) = m ((c : Thread nD τ).loc main_arg2) (ix2 (⟨256 * t.val + p.val, hp⟩ : Fin 4096) k) := by
  show V m c main_arg2 (((cfg0.win 2).blk t).view.emb (ix2 p k)) = _
  rw [V_main_arg2]
  obtain ⟨-, -, -, -, e0, e1, -⟩ := idx_facts t
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-- Every point's block of the first weight window is the whole transposed matrix. -/
theorem block_wih (c : Dev nD) (t : Fin cfg0.N) :
    (iblk m c 3 t : S1024x4096.Idx → EReal) = tr (m ((c : Thread nD τ).loc main_arg3)) := by
  funext y
  show V m c main_v1 (((cfg0.win 3).blk t).view.emb y) = _
  rw [entry_wih]
  obtain ⟨-, -, -, -, -, -, e0, e1, -⟩ := idx_facts t
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Every point's block of the second weight window is the whole transposed matrix. -/
theorem block_whh (c : Dev nD) (t : Fin cfg0.N) :
    (iblk m c 4 t : S1024x4096.Idx → EReal) = tr (m ((c : Thread nD τ).loc main_arg5)) := by
  funext y
  show V m c main_v3 (((cfg0.win 4).blk t).view.emb y) = _
  rw [entry_whh]
  obtain ⟨-, -, -, -, -, -, -, -, e0, e1, -⟩ := idx_facts t
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- Every point's block of the bias window is the whole bias row. -/
theorem block_bias (c : Dev nD) (t : Fin cfg0.N) :
    (iblk m c 5 t : S1x4096.Idx → EReal)
      = biasRow (m ((c : Thread nD τ).loc main_arg4)) (m ((c : Thread nD τ).loc main_arg6)) := by
  funext y
  show V m c main_v5 (((cfg0.win 5).blk t).view.emb y) = _
  rw [entry_bias]
  obtain ⟨-, -, -, -, -, -, -, -, -, -, e0, e1, -⟩ := idx_facts t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 4096 + 1 * (y 1).val = (y 1).val; omega

/-! ## What each point writes back -/

/-- The whole-batch new hidden state of the launch's arguments on core `c`. -/
abbrev hiddenG (c : Dev nD) : S4096x1024.Idx → EReal :=
  hiddenOf (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))
    (m ((c : Thread nD τ).loc main_arg6))

/-- The whole-batch new cell state of the launch's arguments on core `c`. -/
abbrev cellG (c : Dev nD) : S4096x1024.Idx → EReal :=
  cellOf (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))
    (m ((c : Thread nD τ).loc main_arg6))

/-- Point `t` writes back block `t` of the whole-batch new cell state. -/
theorem flushed_cell (c : Dev nD) (t : Fin cfg0.N) :
    (dats m 0 c).flushed 7 t = ((cfg0.win 7).blk t).view.read (Elt Ideal) (cellG m c) := by
  rw [Cert.KernelIdeal.Value.flushed7]
  funext y
  obtain ⟨p, q, rfl⟩ : ∃ (p : Fin 256) (q : Fin 1024), y = ix2 p q := ⟨y 0, y 1, eq_ix2 y⟩
  have ht := point_lt t
  have hp : 256 * t.val + p.val < 4096 := by have := p.isLt; omega
  obtain ⟨-, -, -, -, -, -, -, -, -, -, -, -, -, -, e0, e1⟩ := idx_facts t
  have hemb : ((cfg0.win 7).blk t).view.emb (ix2 p q) = ix2 (⟨256 * t.val + p.val, hp⟩ : Fin 4096) q :=
    funext fun a => Fin.ext (by
      match a with
      | ⟨0, _⟩ => show win0_7.index t (0 : Fin 2) * 256 + 1 * p.val = 256 * t.val + p.val; omega
      | ⟨1, _⟩ => show win0_7.index t (1 : Fin 2) * 1024 + 1 * q.val = q.val; omega)
  show out0_7 (iblk m c 0 t) (iblk m c 1 t) (iblk m c 2 t) (iblk m c 3 t) (iblk m c 4 t) (iblk m c 5 t) (ix2 p q)
    = cellG m c (((cfg0.win 7).blk t).view.emb (ix2 p q))
  rw [hemb]
  refine (Body.cell_block_at _ _ _ _ _ _ p q).trans ?_
  rw [block_wih m c t, block_whh m c t, block_bias m c t]
  exact cellAt_rows (256 * t.val) _ _ _ _ _ _ _ _ _ (fun p k hp => block_x m c t p k hp)
    (fun p k hp => block_h m c t p k hp) (fun p k hp => block_c m c t p k hp) p ⟨256 * t.val + p.val, hp⟩ rfl q

/-- Point `t` writes back block `t` of the whole-batch new hidden state. -/
theorem flushed_hidden (c : Dev nD) (t : Fin cfg0.N) :
    (dats m 0 c).flushed 6 t = ((cfg0.win 6).blk t).view.read (Elt Ideal) (hiddenG m c) := by
  rw [Cert.KernelIdeal.Value.flushed6]
  funext y
  obtain ⟨p, q, rfl⟩ : ∃ (p : Fin 256) (q : Fin 1024), y = ix2 p q := ⟨y 0, y 1, eq_ix2 y⟩
  have ht := point_lt t
  have hp : 256 * t.val + p.val < 4096 := by have := p.isLt; omega
  obtain ⟨-, -, -, -, -, -, -, -, -, -, -, -, e0, e1, -⟩ := idx_facts t
  have hemb : ((cfg0.win 6).blk t).view.emb (ix2 p q) = ix2 (⟨256 * t.val + p.val, hp⟩ : Fin 4096) q :=
    funext fun a => Fin.ext (by
      match a with
      | ⟨0, _⟩ => show win0_6.index t (0 : Fin 2) * 256 + 1 * p.val = 256 * t.val + p.val; omega
      | ⟨1, _⟩ => show win0_6.index t (1 : Fin 2) * 1024 + 1 * q.val = q.val; omega)
  show out0_6 (iblk m c 0 t) (iblk m c 1 t) (iblk m c 2 t) (iblk m c 3 t) (iblk m c 4 t) (iblk m c 5 t) (ix2 p q)
    = hiddenG m c (((cfg0.win 6).blk t).view.emb (ix2 p q))
  rw [hemb]
  refine (Body.hidden_block_at _ _ _ _ _ _ p q).trans ?_
  rw [block_wih m c t, block_whh m c t, block_bias m c t]
  exact hiddenAt_rows (256 * t.val) _ _ _ _ _ _ _ _ _ (fun p k hp => block_x m c t p k hp)
    (fun p k hp => block_h m c t p k hp) (fun p k hp => block_c m c t p k hp) p ⟨256 * t.val + p.val, hp⟩ rfl q

/-! ## The sixteen blocks cover the array -/

theorem mem_block_cell (t : Fin cfg0.N) (i : S4096x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v6_1).slice (win0_7.rect t)).set ↔ _
  rw [View.set_slice_whole, Rect.mem_set_unit]
  exact Iff.rfl

theorem mem_block_hidden (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v6_0).slice (win0_6.rect t)).set ↔ _
  rw [View.set_slice_whole, Rect.mem_set_unit]
  exact Iff.rfl

/-- Row `r` lies in the block of point `r / 256`. -/
theorem cover_cell (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : (i 0).val / 256 < cfg0.N := by show _ < grid0.N; rw [N_0]; omega
  refine ⟨⟨(i 0).val / 256, hN⟩, flush0_7 _, ?_⟩
  rw [mem_block_cell]
  obtain ⟨-, -, -, -, -, -, -, -, -, -, -, -, -, -, e0, e1⟩ := idx_facts ⟨(i 0).val / 256, hN⟩
  have e0' : win0_7.index ⟨(i 0).val / 256, hN⟩ (0 : Fin 2) = (i 0).val / 256 := e0
  intro a
  match a with
  | ⟨0, _⟩ =>
    show win0_7.index ⟨(i 0).val / 256, hN⟩ (0 : Fin 2) * 256 ≤ (i 0).val
      ∧ (i 0).val < win0_7.index ⟨(i 0).val / 256, hN⟩ (0 : Fin 2) * 256 + 256
    omega
  | ⟨1, _⟩ =>
    show win0_7.index ⟨(i 0).val / 256, hN⟩ (1 : Fin 2) * 1024 ≤ (i 1).val
      ∧ (i 1).val < win0_7.index ⟨(i 0).val / 256, hN⟩ (1 : Fin 2) * 1024 + 1024
    omega

theorem cover_hidden (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : (i 0).val / 256 < cfg0.N := by show _ < grid0.N; rw [N_0]; omega
  refine ⟨⟨(i 0).val / 256, hN⟩, flush0_6 _, ?_⟩
  rw [mem_block_hidden]
  obtain ⟨-, -, -, -, -, -, -, -, -, -, -, -, e0, e1, -⟩ := idx_facts ⟨(i 0).val / 256, hN⟩
  have e0' : win0_6.index ⟨(i 0).val / 256, hN⟩ (0 : Fin 2) = (i 0).val / 256 := e0
  intro a
  match a with
  | ⟨0, _⟩ =>
    show win0_6.index ⟨(i 0).val / 256, hN⟩ (0 : Fin 2) * 256 ≤ (i 0).val
      ∧ (i 0).val < win0_6.index ⟨(i 0).val / 256, hN⟩ (0 : Fin 2) * 256 + 256
    omega
  | ⟨1, _⟩ =>
    show win0_6.index ⟨(i 0).val / 256, hN⟩ (1 : Fin 2) * 1024 ≤ (i 1).val
      ∧ (i 1).val < win0_6.index ⟨(i 0).val / 256, hN⟩ (1 : Fin 2) * 1024 + 1024
    omega

/-! ## The arrays after the run, and the run -/

theorem final_cell (c : Dev nD) : (dats m 0 c).arrAt 7 cfg0.N = cellG m c :=
  (dats m 0 c).arrAt_eq_of_cover 7 (cellG m c) (fun t _ => flushed_cell m c t) cover_cell

theorem final_hidden (c : Dev nD) : (dats m 0 c).arrAt 6 cfg0.N = hiddenG m c :=
  (dats m 0 c).arrAt_eq_of_cover 6 (hiddenG m c) (fun t _ => flushed_hidden m c t) cover_hidden

/-- Every weakly fair execution of the idealized kernel terminates with the first output array at the whole-batch new
    hidden state, the second at the whole-batch new cell state, and the arguments unchanged. -/
theorem run : θ_run defs (onTc (τ := τ) (main (F := Ideal))) ⟨m, fun _ => 0, ρ⟩ fun r => ∀ c : Dev nD,
      r.2.mem ((c : Thread nD τ).loc main_v6_0) = hiddenG m c
      ∧ r.2.mem ((c : Thread nD τ).loc main_v6_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Cert.KernelIdeal.Value.run_blocks m ρ)

end Cert.Lstm.Kernel

end
-- ==== Proof.RefValue.lean ====
/-
  The reference computes the cell function.

  Its gates array is `[4096, 4096]`: `(x · Wᵀ + b_ih) + h · Uᵀ + b_hh`, the two biases broadcast over the rows. At `(r, n)`
  that is `∑ₖ x(r, k) · W(n, k) + b_ih(n) + ∑ₖ h(r, k) · U(n, k) + b_hh(n)`, which is the pre-activation of gate column `n`
  at row `r` once the two biases are moved together (sums of extended reals commute and associate). The four gates are the
  four column slices of width 1024; its logistic function is written `1 / (1 + exp (-z))`, the same function as
  `½ · tanh (½ · z) + ½`. The rest is the same products and sums in the same order.
-/
import proofs.«123224_j73787538145444_2_alg».proof.Proof.Gen.ReferenceIdeal.Read
import proofs.«123224_j73787538145444_2_alg».proof.Proof.Spec

noncomputable section

namespace Cert.Lstm.Ref

open Idealize.ShloMosaic Idealize.ShloMosaic.ValueIdx Cert.ReferenceIdeal Cert.ReferenceIdeal.Read Cert.Lstm

variable (x0 x1 x2 x3 x5 : (⟨S4096x1024, .f32⟩ : BufTy).Contents (Elt Ideal)) (x4 x6 : (⟨S4096, .f32⟩ : BufTy).Contents (Elt Ideal))

/-- The gates array at row `r`, column `n`, is the pre-activation there. -/
theorem gates_at (r n : Fin 4096) :
    val_main_v10 (F := Ideal) x0 x1 x3 x4 x5 x6 (ix2 r n) = preact x0 x1 (tr x3) (tr x5) (biasRow x4 x6) r n := by
  rw [val_main_v10_apply, val_main_v7_apply, val_main_v4_apply, val_main_v1_apply, val_main_v3_apply, val_main_v2_apply,
    val_main_v6_apply, val_main_v9_apply, val_main_v8_apply]
  have e1 : ∀ k : Fin 1024, lidx_main_v1 (ix2 r n) k = ix2 r k := fun k => funext fun a => by
    match a with
    | ⟨0, _⟩ => rfl
    | ⟨1, _⟩ => rfl
  have e2 : ∀ k : Fin 1024, idx_main_v0 (ridx_main_v1 (ix2 r n) k) = ix2 n k := fun k => funext fun a => by
    match a with
    | ⟨0, _⟩ => rfl
    | ⟨1, _⟩ => rfl
  have e3 : ∀ k : Fin 1024, lidx_main_v6 (ix2 r n) k = ix2 r k := fun k => funext fun a => by
    match a with
    | ⟨0, _⟩ => rfl
    | ⟨1, _⟩ => rfl
  have e4 : ∀ k : Fin 1024, idx_main_v5 (ridx_main_v6 (ix2 r n) k) = ix2 n k := fun k => funext fun a => by
    match a with
    | ⟨0, _⟩ => rfl
    | ⟨1, _⟩ => rfl
  have e5 : idx_main_v2 (idx_main_v3 (ix2 r n)) = ix1 n := funext fun a => by
    match a with
    | ⟨0, _⟩ => rfl
  have e6 : idx_main_v8 (idx_main_v9 (ix2 r n)) = ix1 n := funext fun a => by
    match a with
    | ⟨0, _⟩ => rfl
  simp only [val_main_v0_apply, val_main_v5_apply, e1, e2, e3, e4, e5, e6, Ideal.addf_def]
  rw [add_biases]
  rfl

/-- The four column slices are the four gates' pre-activations. -/
theorem gate0_at (r : Fin 4096) (q : Fin 1024) :
    val_main_v11 (F := Ideal) x0 x1 x3 x4 x5 x6 (ix2 r q)
      = preact x0 x1 (tr x3) (tr x5) (biasRow x4 x6) r (gcol 0 (by norm_num) q) := by
  rw [val_main_v11_apply]
  have e : idx_main_v11 (ix2 r q) = ix2 r (gcol 0 (by norm_num) q) := funext fun a => by
    match a with
    | ⟨0, _⟩ => rfl
    | ⟨1, _⟩ => exact Fin.ext (Nat.zero_add _).symm
  rw [e, gates_at]

theorem gate1_at (r : Fin 4096) (q : Fin 1024) :
    val_main_v12 (F := Ideal) x0 x1 x3 x4 x5 x6 (ix2 r q)
      = preact x0 x1 (tr x3) (tr x5) (biasRow x4 x6) r (gcol 1024 (by norm_num) q) := by
  rw [val_main_v12_apply]
  have e : idx_main_v12 (ix2 r q) = ix2 r (gcol 1024 (by norm_num) q) := funext fun a => by
    match a with
    | ⟨0, _⟩ => rfl
    | ⟨1, _⟩ => rfl
  rw [e, gates_at]

theorem gate2_at (r : Fin 4096) (q : Fin 1024) :
    val_main_v13 (F := Ideal) x0 x1 x3 x4 x5 x6 (ix2 r q)
      = preact x0 x1 (tr x3) (tr x5) (biasRow x4 x6) r (gcol 2048 (by norm_num) q) := by
  rw [val_main_v13_apply]
  have e : idx_main_v13 (ix2 r q) = ix2 r (gcol 2048 (by norm_num) q) := funext fun a => by
    match a with
    | ⟨0, _⟩ => rfl
    | ⟨1, _⟩ => rfl
  rw [e, gates_at]

theorem gate3_at (r : Fin 4096) (q : Fin 1024) :
    val_main_v14 (F := Ideal) x0 x1 x3 x4 x5 x6 (ix2 r q)
      = preact x0 x1 (tr x3) (tr x5) (biasRow x4 x6) r (gcol 3072 (by norm_num) q) := by
  rw [val_main_v14_apply]
  have e : idx_main_v14 (ix2 r q) = ix2 r (gcol 3072 (by norm_num) q) := funext fun a => by
    match a with
    | ⟨0, _⟩ => rfl
    | ⟨1, _⟩ => rfl
  rw [e, gates_at]

/-- The reference's three logistic gates, each `1 / (1 + exp (-z))` of its slice, are `gateFn` of it. -/
theorem in_gate (i : S4096x1024.Idx) :
    val_main_v20 (F := Ideal) x0 x1 x3 x4 x5 x6 i = gateFn (val_main_v11 (F := Ideal) x0 x1 x3 x4 x5 x6 i) := by
  rw [val_main_v20_apply, val_main_v19_apply, val_main_cst_0_apply, val_main_v18_apply, val_main_v17_apply,
    val_main_cst_apply, val_main_v16_apply, val_main_v15_apply]
  simp only [Ideal.hostDivf_def, Ideal.hostUnary_exp_def, Ideal.hostNegf_def, Ideal.negf_def, Ideal.addf_def, Ideal.ofBits_def]
  exact (gateFn_eq _).symm

theorem forget_gate (i : S4096x1024.Idx) :
    val_main_v26 (F := Ideal) x0 x1 x3 x4 x5 x6 i = gateFn (val_main_v12 (F := Ideal) x0 x1 x3 x4 x5 x6 i) := by
  rw [val_main_v26_apply, val_main_v25_apply, val_main_cst_2_apply, val_main_v24_apply, val_main_v23_apply,
    val_main_cst_1_apply, val_main_v22_apply, val_main_v21_apply]
  simp only [Ideal.hostDivf_def, Ideal.hostUnary_exp_def, Ideal.hostNegf_def, Ideal.negf_def, Ideal.addf_def, Ideal.ofBits_def]
  exact (gateFn_eq _).symm

theorem out_gate (i : S4096x1024.Idx) :
    val_main_v33 (F := Ideal) x0 x1 x3 x4 x5 x6 i = gateFn (val_main_v14 (F := Ideal) x0 x1 x3 x4 x5 x6 i) := by
  rw [val_main_v33_apply, val_main_v32_apply, val_main_cst_4_apply, val_main_v31_apply, val_main_v30_apply,
    val_main_cst_3_apply, val_main_v29_apply, val_main_v28_apply]
  simp only [Ideal.hostDivf_def, Ideal.hostUnary_exp_def, Ideal.hostNegf_def, Ideal.negf_def, Ideal.addf_def, Ideal.ofBits_def]
  exact (gateFn_eq _).symm

/-- The reference's new cell state, entry by entry. -/
theorem cell_at (r : Fin 4096) (q : Fin 1024) :
    val_main_v36 (F := Ideal) x0 x1 x2 x3 x4 x5 x6 (ix2 r q)
      = cellAt x0 x1 x2 (tr x3) (tr x5) (biasRow x4 x6) r q := by
  rw [val_main_v36_apply, val_main_v34_apply, val_main_v35_apply, forget_gate, in_gate, val_main_v27_apply,
    gate1_at, gate0_at, gate2_at]
  simp only [Ideal.addf_def, Ideal.mulf_def, Ideal.hostUnary_tanh_def]
  rfl

/-- The reference's new cell state is the cell function of its arguments. -/
theorem cell_eq : val_main_v36 (F := Ideal) x0 x1 x2 x3 x4 x5 x6 = cellOf x0 x1 x2 x3 x5 x4 x6 := by
  funext i
  obtain ⟨r, q, rfl⟩ : ∃ (r : Fin 4096) (q : Fin 1024), i = ix2 r q := ⟨i 0, i 1, eq_ix2 i⟩
  exact cell_at x0 x1 x2 x3 x5 x4 x6 r q

/-- The reference's new hidden state is the hidden-state function of its arguments. -/
theorem hidden_eq : val_main_v38 (F := Ideal) x0 x1 x2 x3 x4 x5 x6 = hiddenOf x0 x1 x2 x3 x5 x4 x6 := by
  funext i
  obtain ⟨r, q, rfl⟩ : ∃ (r : Fin 4096) (q : Fin 1024), i = ix2 r q := ⟨i 0, i 1, eq_ix2 i⟩
  rw [val_main_v38_apply, val_main_v37_apply, out_gate, gate3_at, cell_at]
  simp only [Ideal.mulf_def, Ideal.hostUnary_tanh_def]
  rfl

end Cert.Lstm.Ref

end
-- ==== Proof.lean ====
/-
  An LSTM cell, a batch of 4096 rows with 1024 inputs and 1024 hidden units: the kernel against the reference, on the
  extended reals.

  Both compute, for row `r` and hidden unit `q`, the four gate pre-activations
      z(n) = ∑ₖ x(r, k) · W_ih(n, k) + ∑ₖ h(r, k) · W_hh(n, k) + b_ih(n) + b_hh(n)      at n = q, 1024 + q, 2048 + q, 3072 + q,
  then  c' = σ(z(1024 + q)) · c + σ(z(q)) · tanh(z(2048 + q))  and  h' = σ(z(3072 + q)) · tanh(c'),  and return (h', h', c').
  They differ in three ways, none of which changes a value on the extended reals:
  * the kernel adds the two biases first and adds their sum after both products, the reference adds `b_ih` after the first
    product and `b_hh` after the second: addition of extended reals commutes and associates;
  * the kernel writes the logistic function as `½ · tanh(½ · z) + ½`, the reference as `1 / (1 + exp(-z))`: one function on
    `[-∞, +∞]`, the infinities included, so no finiteness of the inputs is used anywhere;
  * the kernel rounds its matrix-unit operands to bf16 and works on blocks of 256 rows with the weight matrices transposed
    beforehand, the reference multiplies whole arrays: a change of float format is the identity here, a matrix-unit product
    into zero and the host's product are the same sum, and an entry depends on its own row only.
  The frames are the generated ones; the idealization rewrote nothing, so there is nothing to preserve.
-/
import proofs.«123224_j73787538145444_2_alg».proof.Defs
import proofs.«123224_j73787538145444_2_alg».proof.Proof.Gen.Kernel
import proofs.«123224_j73787538145444_2_alg».proof.Proof.Gen.Kernel.Frame
import proofs.«123224_j73787538145444_2_alg».proof.Proof.Gen.KernelIdeal
import proofs.«123224_j73787538145444_2_alg».proof.Proof.Gen.KernelIdeal.Frame
import proofs.«123224_j73787538145444_2_alg».proof.Proof.Gen.KernelIdeal.Value
import proofs.«123224_j73787538145444_2_alg».proof.Proof.Gen.ReferenceIdeal
import proofs.«123224_j73787538145444_2_alg».proof.Proof.Gen.ReferenceIdeal.Run
import proofs.«123224_j73787538145444_2_alg».proof.Proof.Gen.ReferenceIdeal.Read
import proofs.«123224_j73787538145444_2_alg».proof.Proof.Gen.Pre_finite_inputs
import proofs.«123224_j73787538145444_2_alg».proof.Proof.KernelValue
import proofs.«123224_j73787538145444_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the three results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the seven arguments, both programs end with the whole-batch new hidden state in their first
    two results and the whole-batch new cell state in their third. -/
theorem algebraic : Cert.algebraic_KernelIdeal_ReferenceIdeal := by
  intro m ρ m' ρ' _ hagree
  refine ⟨fun c => Cert.Lstm.Kernel.hiddenG m c, fun c => Cert.Lstm.Kernel.hiddenG m c,
    fun c => Cert.Lstm.Kernel.cellG m c, ?_, ?_⟩
  · exact (θ_run Cert.KernelIdeal.defs _ _).mono (fun _ h c => ⟨(h c).1, (h c).1, (h c).2⟩) (Cert.Lstm.Kernel.run m ρ)
  · refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    · obtain ⟨a0, a1, a2, a3, a4, a5, a6⟩ := hagree c
      rw [Cert.ReferenceIdeal.Read.val_main_v38_eq, Cert.Lstm.Ref.hidden_eq, a0, a1, a2, a3, a4, a5, a6]
    · obtain ⟨a0, a1, a2, a3, a4, a5, a6⟩ := hagree c
      rw [Cert.ReferenceIdeal.Read.val_main_v38_eq, Cert.Lstm.Ref.hidden_eq, a0, a1, a2, a3, a4, a5, a6]
    · obtain ⟨a0, a1, a2, a3, a4, a5, a6⟩ := hagree c
      rw [Cert.ReferenceIdeal.Read.val_main_v36_eq, Cert.Lstm.Ref.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
